-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S64 : Shape := ⟨1, ![64]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S16x64x256x256 .f32) (main_arg1 : FVec F S64 .f32) (main_arg2 : FVec F S64 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x64x256x256 : Shape := ⟨4, ![16, 64, 256, 256]⟩
abbrev S64 : Shape := ⟨1, ![64]⟩
abbrev S1x64x64x256 : Shape := ⟨4, ![1, 64, 64, 256]⟩
abbrev S64x64x256 : Shape := ⟨3, ![64, 64, 256]⟩
abbrev S64x64 : Shape := ⟨2, ![64, 64]⟩
abbrev S_ : Shape := ⟨0, ![]⟩
abbrev S64x1x1 : Shape := ⟨3, ![64, 1, 1]⟩

abbrev nBuf : Space → Nat
  | .hbm => 22
  | .vmem => 10
  | .smem => 0
  | _ => 0

abbrev bufTy : (tb : Table) → Fin (tcTables nBuf tb) → BufTy
  | .hbm, ⟨0, _⟩ => ⟨S16x64x256x256, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S16x64x256x256, .f32⟩
  | .local _ .vmem, ⟨0, _⟩ => ⟨S1x64x64x256, .f32⟩
  | .local _ .vmem, ⟨1, _⟩ => ⟨S1x64x64x256, .f32⟩
  | .local _ .vmem, ⟨2, _⟩ => ⟨S64, .f32⟩
  | .local _ .vmem, ⟨3, _⟩ => ⟨S64, .f32⟩
  | .local _ .vmem, ⟨4, _⟩ => ⟨S1x64x64x256, .f32⟩
  | .local _ .vmem, ⟨5, _⟩ => ⟨S1x64x64x256, .f32⟩
  | .local _ .vmem, ⟨6, _⟩ => ⟨S64, .f32⟩
  | .local _ .vmem, ⟨7, _⟩ => ⟨S64, .f32⟩
  | .local _ .vmem, ⟨8, _⟩ => ⟨S1x64x64x256, .f32⟩
  | .local _ .vmem, ⟨9, _⟩ => ⟨S1x64x64x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x64x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x64x64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S64_S64_0 : ∀ a, (![0] : Fin 1 → Nat) a + S64.size a ≤ S64.size a
  h_S64 : 0 < S64.numel
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  reduces_S64x64x256_S64x64 : S64x64x256.Reduces [2] S64x64
  reduces_S64x64_S64 : S64x64.Reduces [1] S64
  shapeCasts_S64_S64 : S64.ShapeCasts S64
  bcast_S_S64 : S_.BroadcastsInDim S64 (![] : Fin 0 → Fin S64.rank)
  shapeCasts_S64_S64x1x1 : S64.ShapeCasts S64x1x1
  broadcasts_S64x1x1_S64x64x256 : S64x1x1.Broadcasts S64x64x256
  shapeCasts_S64x64x256_S1x64x64x256 : S64x64x256.ShapeCasts S1x64x64x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x256.size a ≤ S16x64x256x256.size a
  hwx0_0 : ∀ i : grid0.Coords, EltTy.bits .f32 = 32 ∨ (Rect.block (s := S16x64x256x256) S1x64x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x256.size a ≤ S16x64x256x256.size a
  hwx1_0 : ∀ i : grid1.Coords, EltTy.bits .f32 = 32 ∨ (Rect.block (s := S16x64x256x256) S1x64x64x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x64x256.size a ≤ S16x64x256x256.size a
  hwx1_3 : ∀ i : grid1.Coords, EltTy.bits .f32 = 32 ∨ (Rect.block (s := S16x64x256x256) S1x64x64x256.size (cc1_transform_3 i) (hinb1_3 i)).WholeWords (EltTy.packing .f32)

variable [Facts₀]

abbrev win0_0 : Pipeline.Window sig grid0 :=
  Pipeline.Window.ofSpec (Memref.whole main_arg0) S1x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x64x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x64x64x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x64x256x256 : Shape := ⟨4, ![16, 64, 256, 256]⟩
abbrev S64 : Shape := ⟨1, ![64]⟩
abbrev S_ : Shape := ⟨0, ![]⟩
abbrev S1x64x1x1 : Shape := ⟨4, ![1, 64, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S16x64x256x256, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S1x64x1x1, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S1x64x1x1, .f32⟩
  | .hbm, ⟨26, _⟩ => ⟨S16x64x256x256, .f32⟩
  | .hbm, ⟨27, _⟩ => ⟨S16x64x256x256, .f32⟩
  | .hbm, ⟨28, _⟩ => ⟨S16x64x256x256, .f32⟩
  | .hbm, ⟨29, _⟩ => ⟨S16x64x256x256, .f32⟩
  | .hbm, ⟨30, _⟩ => ⟨S_, .f32⟩
  | .hbm, ⟨31, _⟩ => ⟨S16x64x256x256, .f32⟩
  | .hbm, ⟨32, _⟩ => ⟨S16x64x256x256, .i1⟩
  | .hbm, ⟨33, _⟩ => ⟨S_, .f32⟩
  | .hbm, ⟨34, _⟩ => ⟨S16x64x256x256, .f32⟩
  | .hbm, ⟨35, _⟩ => ⟨S16x64x256x256, .f32⟩
  | .hbm, ⟨36, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  reducesTo_S16x64x256x256_S64_d0_2_3 : S16x64x256x256.ReducesTo [0, 2, 3] S64
  h_S_ : 0 < S_.numel
  bcast_S_S64 : S_.BroadcastsInDim S64 (![] : Fin 0 → Fin S64.rank)
  bcast_S64_S1x64x1x1_1 : S64.BroadcastsInDim S1x64x1x1 (![1] : Fin 1 → Fin S1x64x1x1.rank)
  bcast_S1x64x1x1_S16x64x256x256_0_1_2_3 : S1x64x1x1.BroadcastsInDim S16x64x256x256 (![0, 1, 2, 3] : Fin 4 → Fin S16x64x256x256.rank)
  bcast_S_S16x64x256x256 : S_.BroadcastsInDim S16x64x256x256 (![] : Fin 0 → Fin S16x64x256x256.rank)

variable [Facts₀]

class Facts : Prop extends Facts₀ where

variable [Facts]
-- ==== Proof.KernelRun.lean ====
/-
  The idealized kernel's run with its result array named.

  The program is two grid regions with a stretch of sixteen pointwise host operations between them. Its memory is
  followed boundary by boundary: the launch contents, the contents after the first region (the two accumulated
  per-channel sums written back), after the host stretch (the per-channel scale and shift), and after the second
  region (the normalised, activated array written back block by block). Every weakly fair execution ends with
  every unscoped buffer at the last boundary's contents; read at the result buffer this names the result, and
  read at the three arguments it says they are unchanged.
-/
import proofs.«177240_j5669356835394_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, faultless, with the result array at the contents the last boundary
    gives it and the three argument arrays as launched. -/
theorem run : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.RunValue

end
-- ==== Proof.Regroup.lean ====
/-
  One channel's sum over batch, height and width, regrouped the way a tiled pass visits it.

  An array of extents 16 × 64 × 256 × 256 (batch, channel, height, width) is visited in 64 tiles: tile `t` is batch
  entry `t / 4` and the 64 rows `64 · (t mod 4) … 64 · (t mod 4) + 63`, all channels and the whole width. For a fixed
  channel, "tile, row within the tile, lane" is a bijection onto the positions of that channel, so the sum of the
  channel's entries over batch, height and width is the triple sum over tiles, rows and lanes. Addition of extended
  reals is commutative and associative, which is all a change of summation order needs: no entry has to be finite.
-/
import Idealize.ShloMosaic.PureOps.Ideal.Laws
import Idealize.ShloMosaic.Lib.ValueIdx

noncomputable section

open scoped BigOperators

namespace Cert.BatchStat

open Idealize.ShloMosaic Idealize.ShloMosaic.ValueIdx

/-- The array's shape and the per-channel vector's. -/
abbrev SX : Shape := ⟨4, ![16, 64, 256, 256]⟩
abbrev SC : Shape := ⟨1, ![64]⟩

/-- The position, in the whole array, of channel `ch`, row `r` and lane `l` of tile `t`. -/
def pos (t ch r : Fin 64) (l : Fin 256) : SX.Idx :=
  ix4 (⟨t.val / 4, by have := t.isLt; omega⟩ : Fin 16) ch
    (⟨t.val % 4 * 64 + r.val, by have := t.isLt; have := r.isLt; omega⟩ : Fin 256) l

/-- The tile that holds a position: batch entry times four plus the quarter of the height it lies in. -/
def tileOf (i : SX.Idx) : Fin 64 :=
  ⟨(i 0).val * 4 + (i 2).val / 64, by
    have h0 : (i 0).val < 16 := (i 0).isLt
    have h2 : (i 2).val < 256 := (i 2).isLt
    omega⟩

/-- Its row within that tile. -/
def rowOf (i : SX.Idx) : Fin 64 := ⟨(i 2).val % 64, Nat.mod_lt _ (by decide)⟩

/-- Every position is the one its tile, channel, row and lane name. -/
theorem pos_of (i : SX.Idx) : pos (tileOf i) (i 1) (rowOf i) (i 3) = i := by
  have h0 : (i 0).val < 16 := (i 0).isLt
  have h2 : (i 2).val < 256 := (i 2).isLt
  funext a
  apply Fin.ext
  match a with
  | ⟨0, _⟩ => show ((i 0).val * 4 + (i 2).val / 64) / 4 = (i 0).val; omega
  | ⟨1, _⟩ => rfl
  | ⟨2, _⟩ => show ((i 0).val * 4 + (i 2).val / 64) % 4 * 64 + (i 2).val % 64 = (i 2).val; omega
  | ⟨3, _⟩ => rfl

/-- The tile and the row of a named position are the ones that named it. -/
theorem tileOf_pos (t ch r : Fin 64) (l : Fin 256) : tileOf (pos t ch r l) = t := by
  have := t.isLt; have := r.isLt
  apply Fin.ext
  show t.val / 4 * 4 + (t.val % 4 * 64 + r.val) / 64 = t.val
  omega

theorem rowOf_pos (t ch r : Fin 64) (l : Fin 256) : rowOf (pos t ch r l) = r := by
  have := t.isLt; have := r.isLt
  apply Fin.ext
  show (t.val % 4 * 64 + r.val) % 64 = r.val
  omega

/-- A position reduces (over batch, height and width) to channel `ch` exactly when its channel coordinate is `ch`. -/
theorem drop_eq_iff (h' : SX.ReducesTo [0, 2, 3] SC) (i : SX.Idx) (ch : Fin 64) : h'.drop i = ix1 ch ↔ i 1 = ch := by
  have h1 : (h'.drop i 0 : Nat) = i 1 := Shape.ReducesTo.drop_apply_val_of_eq h' i 0 1
  constructor
  · intro e
    apply Fin.ext
    rw [← h1, e]
  · intro e
    funext b
    match b with
    | ⟨0, _⟩ => exact Fin.ext (h1.trans (congrArg Fin.val e))

/-- The channel's sum over batch, height and width is the sum over tiles of the sum over the tile's rows of the
    sum along the row. -/
theorem sum_channel (h' : SX.ReducesTo [0, 2, 3] SC) (x : SX.Idx → EReal) (ch : Fin 64) :
    ∑ i ∈ Finset.univ.filter (fun i => h'.drop i = ix1 ch), x i
      = ∑ t : Fin 64, ∑ r : Fin 64, ∑ l : Fin 256, x (pos t ch r l) := by
  have step : ∑ i ∈ Finset.univ.filter (fun i => h'.drop i = ix1 ch), x i
      = ∑ p : Fin 64 × Fin 64 × Fin 256, x (pos p.1 ch p.2.1 p.2.2) := by
    refine Finset.sum_nbij' (fun i => (tileOf i, rowOf i, i 3)) (fun p => pos p.1 ch p.2.1 p.2.2) ?_ ?_ ?_ ?_ ?_
    · intro i _; exact Finset.mem_univ _
    · intro p _; exact Finset.mem_filter.2 ⟨Finset.mem_univ _, (drop_eq_iff h' _ ch).2 rfl⟩
    · intro i hi
      have hc : i 1 = ch := (drop_eq_iff h' i ch).1 (Finset.mem_filter.1 hi).2
      show pos (tileOf i) ch (rowOf i) (i 3) = i
      rw [← hc]; exact pos_of i
    · intro p _
      show (tileOf (pos p.1 ch p.2.1 p.2.2), rowOf (pos p.1 ch p.2.1 p.2.2), (pos p.1 ch p.2.1 p.2.2) 3) = p
      rw [tileOf_pos, rowOf_pos]
      rfl
    · intro i hi
      have hc : i 1 = ch := (drop_eq_iff h' i ch).1 (Finset.mem_filter.1 hi).2
      show x i = x (pos (tileOf i) ch (rowOf i) (i 3))
      rw [← hc, pos_of i]
  rw [step, Fintype.sum_prod_type]
  refine Finset.sum_congr rfl fun t _ => ?_
  rw [Fintype.sum_prod_type]

end Cert.BatchStat

end
-- ==== Proof.ChannelSums.lean ====
/-
  The first region: per-channel sum and sum of squares, accumulated tile by tile.

  At every grid point the body adds, to each of two 64-entry accumulators, the tile's per-channel partial sum: the
  tile's entries (resp. their squares) summed along the lanes, then along the tile's rows. At the first point the
  accumulators are first set to zero. Both accumulators stay in place between points and are written back once, after
  the last point. So what the region leaves in each result array is, channel by channel, zero plus the sum over the 64
  tiles of the tile's partial sum, the tile's entry (channel `ch`, row `r`, lane `l`) being the array's entry at
  `pos t ch r l`.
-/
import proofs.«177240_j5669356835394_1_alg».proof.Proof.Gen.KernelIdeal.Frame
import proofs.«177240_j5669356835394_1_alg».proof.Proof.Regroup
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Sums

open Cert.KernelIdeal Cert.KernelIdeal.Gen Cert.BatchStat

/-! ## What each case of the body leaves in the two accumulators (any float instance) -/

section Cases

variable {F : FTy → Type} [FloatOps F]

theorem hz1 : (![0] : Fin 1 → Nat) = fun _ => 0 := funext fun a => by fin_cases a <;> rfl
theorem hz4 : (![0, 0, 0, 0] : Fin 4 → Nat) = fun _ => 0 := funext fun a => by fin_cases a <;> rfl

/-- A later point: the sum accumulator ends at its previous contents plus the tile's partial sum. -/
theorem later_sum (c : Dev nD) (i : grid0.Coords) (a2 : Memref sig .tc .vmem S1x64x64x256 .f32) (h2 : a2.IsWhole)
    (a3 : Memref sig .tc .vmem S64 .f32) (h3 : a3.IsWhole) (a4 : Memref sig .tc .vmem S64 .f32) (h4 : a4.IsWhole)
    (hc : ¬cond0_0 i) (x : Vec F S1x64x64x256 .f32) (xo1 xo2 : Vec F S64 .f32) :
    out0_B_1 c i a2 h2 a3 h3 a4 h4 hc x xo1 xo2 = k0_pay4 x xo1 := by
  unfold out0_B_1
  rw [View.read_writes_eq_canon _ _ _ (cover0_B_1 c i a2 h2 a3 h3 a4 h4 hc x xo1 xo2)]
  unfold kernelRun0_B
  dsimp only
  rw [View.canon_unit_zero hz1]
  simp only [View.readAt_eq_ld, h2.read_unread, h3.read_unread, View.ld_unit_zero (S := S1x64x64x256) hz4,
    View.ld_unit_zero (S := S64) hz1]

/-- A later point: the accumulator of squares likewise. -/
theorem later_sq (c : Dev nD) (i : grid0.Coords) (a2 : Memref sig .tc .vmem S1x64x64x256 .f32) (h2 : a2.IsWhole)
    (a3 : Memref sig .tc .vmem S64 .f32) (h3 : a3.IsWhole) (a4 : Memref sig .tc .vmem S64 .f32) (h4 : a4.IsWhole)
    (hc : ¬cond0_0 i) (x : Vec F S1x64x64x256 .f32) (xo1 xo2 : Vec F S64 .f32) :
    out0_B_2 c i a2 h2 a3 h3 a4 h4 hc x xo1 xo2 = k0_pay5 x xo2 := by
  unfold out0_B_2
  rw [View.read_writes_eq_canon _ _ _ (cover0_B_2 c i a2 h2 a3 h3 a4 h4 hc x xo1 xo2)]
  unfold kernelRun0_B
  dsimp only
  rw [View.canon_unit_zero hz1]
  simp only [View.readAt_eq_ld, h2.read_unread, h4.read_unread, View.ld_unit_zero (S := S1x64x64x256) hz4,
    View.ld_unit_zero (S := S64) hz1]

/-- The first point: the sum accumulator is zeroed, read back, and ends at the zero vector plus the tile's partial sum. -/
theorem first_sum (c : Dev nD) (i : grid0.Coords) (a2 : Memref sig .tc .vmem S1x64x64x256 .f32) (h2 : a2.IsWhole)
    (a3 : Memref sig .tc .vmem S64 .f32) (h3 : a3.IsWhole) (a4 : Memref sig .tc .vmem S64 .f32) (h4 : a4.IsWhole)
    (hc : cond0_0 i) (x : Vec F S1x64x64x256 .f32) :
    out0_A_1 c i a2 h2 a3 h3 a4 h4 hc x = k0_pay4 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S64) hz1, View.readCov_unit_zero (S := S64) _ hz1]
  simp only [View.readAt_eq_ld, h2.read_unread, View.ld_unit_zero (S := S1x64x64x256) hz4]

/-- The first point: the accumulator of squares likewise. -/
theorem first_sq (c : Dev nD) (i : grid0.Coords) (a2 : Memref sig .tc .vmem S1x64x64x256 .f32) (h2 : a2.IsWhole)
    (a3 : Memref sig .tc .vmem S64 .f32) (h3 : a3.IsWhole) (a4 : Memref sig .tc .vmem S64 .f32) (h4 : a4.IsWhole)
    (hc : cond0_0 i) (x : Vec F S1x64x64x256 .f32) :
    out0_A_2 c i a2 h2 a3 h3 a4 h4 hc x = k0_pay5 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S64) hz1, View.readCov_unit_zero (S := S64) _ hz1]
  simp only [View.readAt_eq_ld, h2.read_unread, View.ld_unit_zero (S := S1x64x64x256) hz4]

end Cases

/-! ## The tile's partial sums at a channel, over the extended reals -/

/-- Summing a 64 × 64 × 256 vector along its lanes and then along its rows gives, at channel `ch`, the double sum of
    the channel's entries. -/
theorem lanes_then_rows (v : FVec Ideal S64x64x256 .f32) (h2 : S64x64x256.Reduces [2] S64x64) (h1 : S64x64.Reduces [1] S64)
    (hφ hφ' : FKind.Formats .f32) (ha : (0x00000000#32 : BitVec 32) = FKind.add.neutral .f32 hφ)
    (hb : (0x00000000#32 : BitVec 32) = FKind.add.neutral .f32 hφ') (ch : Fin 64) :
    multiReduction .add [1] S64 (multiReduction .add [2] S64x64 v 0x00000000#32 h2 hφ ha) 0x00000000#32 h1 hφ' hb (ix1 ch)
      = ∑ r : Fin 64, ∑ l : Fin 256, v (ix3 ch r l) := by
  refine (Ideal.multiReduction_add_single _ _ h1 hφ' hb (ix1 ch)).trans ?_
  show ∑ r : Fin 64, _ = ∑ r : Fin 64, _
  refine Finset.sum_congr rfl fun r _ => ?_
  have e1 : h1.lift (ix1 ch) r = ix2 ch r := funext fun a => Fin.ext (match a with | ⟨0, _⟩ => rfl | ⟨1, _⟩ => rfl)
  rw [e1]
  refine (Ideal.multiReduction_add_single v _ h2 hφ ha (ix2 ch r)).trans ?_
  show ∑ l : Fin 256, _ = ∑ l : Fin 256, _
  refine Finset.sum_congr rfl fun l _ => ?_
  have e2 : h2.lift (ix2 ch r) l = ix3 ch r l :=
    funext fun a => Fin.ext (match a with | ⟨0, _⟩ => rfl | ⟨1, _⟩ => rfl | ⟨2, _⟩ => rfl)
  rw [e2]

/-- The sum accumulator's new contents at a channel: the old entry plus the tile's channel summed over rows and lanes. -/
theorem pay_sum_apply (x : Vec Ideal S1x64x64x256 .f32) (acc : Vec Ideal S64 .f32) (ch : Fin 64) :
    k0_pay4 (F := Ideal) x acc (ix1 ch) = acc (ix1 ch) + ∑ r : Fin 64, ∑ l : Fin 256, x (ix4 (0 : Fin 1) ch r l) := by
  unfold k0_pay4 k0_pay3
  dsimp only
  rw [addf_apply]
  refine congrArg₂ (· + ·) (congrFun (shapeCast_self acc _) _) ?_
  refine (lanes_then_rows _ _ _ _ _ _ _ ch).trans ?_
  exact Finset.sum_congr rfl fun r _ => Finset.sum_congr rfl fun l _ => shapeCast_1abc_abc_apply x _ ch r l

/-- The accumulator of squares likewise, the summand the entry times itself. -/
theorem pay_sq_apply (x : Vec Ideal S1x64x64x256 .f32) (acc : Vec Ideal S64 .f32) (ch : Fin 64) :
    k0_pay5 (F := Ideal) x acc (ix1 ch)
      = acc (ix1 ch) + ∑ r : Fin 64, ∑ l : Fin 256, x (ix4 (0 : Fin 1) ch r l) * x (ix4 (0 : Fin 1) ch r l) := by
  unfold k0_pay5 k0_pay3
  dsimp only
  rw [addf_apply]
  refine congrArg₂ (· + ·) (congrFun (shapeCast_self acc _) _) ?_
  refine (lanes_then_rows _ _ _ _ _ _ _ ch).trans ?_
  refine Finset.sum_congr rfl fun r _ => Finset.sum_congr rfl fun l _ => ?_
  rw [mulf_apply, shapeCast_1abc_abc_apply x _ ch r l]

end Cert.KernelIdeal.Sums

end
-- ==== Proof.Accumulate.lean ====
/-
  The first region's two result arrays, channel by channel.

  Tile `t` of the input is read through the window at block index (t / 4, 0, t mod 4, 0): its entry (channel `ch`, row
  `r`, lane `l`) is the array's entry at `pos t ch r l`. By induction on the grid point, after point `n` each
  accumulator holds zero plus the partial sums of tiles 0 … n. The accumulators' one block is the whole 64-entry array
  and is written back after the last point only, so the result arrays end at the accumulators' contents after point 63.
-/
import proofs.«177240_j5669356835394_1_alg».proof.Proof.ChannelSums

noncomputable section

open scoped BigOperators
open Idealize.ShloMosaic Idealize.ShloMosaic.TcCoe Idealize.SL.Sem Idealize.ShloMosaic.ValueIdx
open Idealize.ShloMosaic.Pipeline (Dat)

namespace Cert.KernelIdeal.Sums

open Cert.KernelIdeal Cert.KernelIdeal.Gen Cert.BatchStat

variable (V : (c : Dev nD) → (b : Ref sig .tc) → Buf (Elt Ideal) ((c : Thread nD τ).loc b))

/-- The input window's block index at grid point `t`: batch entry `t / 4`, quarter `t mod 4` of the height. -/
theorem idx_tile : ∀ t : Fin cfg0.N, win0_0.index t (0 : Fin 4) = t.val / 4 ∧ win0_0.index t (1 : Fin 4) = 0
      ∧ win0_0.index t (2 : Fin 4) = t.val % 4 ∧ win0_0.index t (3 : Fin 4) = 0 :=
  (by decide +kernel : ∀ t : Fin grid0.N, win0_0.index t (0 : Fin 4) = t.val / 4 ∧ win0_0.index t (1 : Fin 4) = 0
      ∧ win0_0.index t (2 : Fin 4) = t.val % 4 ∧ win0_0.index t (3 : Fin 4) = 0)

/-- The input array as the region finds it, and its tile at grid point `t`, as plain functions of an index. -/
abbrev arr (c : Dev nD) : SX.Idx → Ideal .f32 := V c main_arg0
abbrev tile (c : Dev nD) (t : Fin cfg0.N) : Vec Ideal S1x64x64x256 .f32 := iblk0 V c 0 t

/-- An entry of tile `t`, read through the window, is the array's entry at the tile's position. -/
theorem tile_entry (c : Dev nD) (t : Fin cfg0.N) (ch r : Fin 64) (l : Fin 256) :
    tile V c t (ix4 (0 : Fin 1) ch r l) = arr V c (pos (t.cast N_0) ch r l) := by
  obtain ⟨h0, h1, h2, h3⟩ := idx_tile t
  unfold tile arr iblk0
  rw [View.read_apply]
  show V c main_arg0 _ = V c main_arg0 _
  congr 1
  funext a
  apply Fin.ext
  match a with
  | ⟨0, _⟩ => show win0_0.index t 0 * 1 + 1 * 0 = t.val / 4; rw [h0]; omega
  | ⟨1, _⟩ => show win0_0.index t 1 * 64 + 1 * ch.val = ch.val; rw [h1]; omega
  | ⟨2, _⟩ => show win0_0.index t 2 * 64 + 1 * r.val = t.val % 4 * 64 + r.val; rw [h2]; omega
  | ⟨3, _⟩ => show win0_0.index t 3 * 256 + 1 * l.val = l.val; rw [h3]; omega

/-- Tile `n`'s partial sum at channel `ch` (zero past the grid), and its partial sum of squares. -/
def tileSum (c : Dev nD) (ch : Fin 64) (n : ℕ) : EReal :=
  if h : n < 64 then ∑ r : Fin 64, ∑ l : Fin 256, arr V c (pos ⟨n, h⟩ ch r l) else 0
def tileSq (c : Dev nD) (ch : Fin 64) (n : ℕ) : EReal :=
  if h : n < 64 then ∑ r : Fin 64, ∑ l : Fin 256, arr V c (pos ⟨n, h⟩ ch r l) * arr V c (pos ⟨n, h⟩ ch r l) else 0

theorem tile_sum (c : Dev nD) (t : Fin cfg0.N) (ch : Fin 64) :
    ∑ r : Fin 64, ∑ l : Fin 256, tile V c t (ix4 (0 : Fin 1) ch r l) = tileSum V c ch t.val := by
  have hN : cfg0.N = 64 := N_0
  have ht : t.val < 64 := by have := t.isLt; omega
  unfold tileSum
  rw [dif_pos ht]
  exact Finset.sum_congr rfl fun r _ => Finset.sum_congr rfl fun l _ => tile_entry V c t ch r l

theorem tile_sq (c : Dev nD) (t : Fin cfg0.N) (ch : Fin 64) :
    ∑ r : Fin 64, ∑ l : Fin 256, tile V c t (ix4 (0 : Fin 1) ch r l)
        * tile V c t (ix4 (0 : Fin 1) ch r l) = tileSq V c ch t.val := by
  have hN : cfg0.N = 64 := N_0
  have ht : t.val < 64 := by have := t.isLt; omega
  unfold tileSq
  rw [dif_pos ht]
  exact Finset.sum_congr rfl fun r _ => Finset.sum_congr rfl fun l _ => by rw [tile_entry V c t ch r l]; rfl

/-- After point `n` the sum accumulator holds, at channel `ch`, zero plus the partial sums of tiles 0 … n. -/
theorem acc_sum_at (c : Dev nD) (ch : Fin 64) : ∀ (n : ℕ) (h : n < cfg0.N),
    (outsAt0 V c n h).1 (ix1 ch) = Ideal.ofBits .f32 0x00000000#32 + ∑ k ∈ Finset.range (n + 1), tileSum V c ch k
  | 0, h => by
    rw [outsAt0_A V c ⟨0, h⟩ rfl]
    dsimp only
    rw [first_sum, pay_sum_apply, Finset.sum_range_one]
    exact congrArg₂ (· + ·) rfl (tile_sum V c ⟨0, h⟩ ch)
  | n + 1, h => by
    have hN : cfg0.N = 64 := N_0
    have hB : ¬(⟨n + 1, h⟩ : Fin cfg0.N).val % 64 = 0 := by dsimp only; omega
    rw [outsAt0_B V c ⟨n + 1, h⟩ hB]
    dsimp only
    rw [later_sum, pay_sum_apply, Finset.sum_range_succ, ← add_assoc]
    exact congrArg₂ (· + ·) (acc_sum_at c ch n _) (tile_sum V c ⟨n + 1, h⟩ ch)

/-- The accumulator of squares likewise. -/
theorem acc_sq_at (c : Dev nD) (ch : Fin 64) : ∀ (n : ℕ) (h : n < cfg0.N),
    (outsAt0 V c n h).2 (ix1 ch) = Ideal.ofBits .f32 0x00000000#32 + ∑ k ∈ Finset.range (n + 1), tileSq V c ch k
  | 0, h => by
    rw [outsAt0_A V c ⟨0, h⟩ rfl]
    dsimp only
    rw [first_sq, pay_sq_apply, Finset.sum_range_one]
    exact congrArg₂ (· + ·) rfl (tile_sq V c ⟨0, h⟩ ch)
  | n + 1, h => by
    have hN : cfg0.N = 64 := N_0
    have hB : ¬(⟨n + 1, h⟩ : Fin cfg0.N).val % 64 = 0 := by dsimp only; omega
    rw [outsAt0_B V c ⟨n + 1, h⟩ hB]
    dsimp only
    rw [later_sq, pay_sq_apply, Finset.sum_range_succ, ← add_assoc]
    exact congrArg₂ (· + ·) (acc_sq_at c ch n _) (tile_sq V c ⟨n + 1, h⟩ ch)

/-- The last grid point. -/
theorem h63 : 63 < cfg0.N := by rw [show cfg0.N = 64 from N_0]; decide
abbrev tLast : Fin cfg0.N := ⟨63, h63⟩

/-- The sums over all 64 tiles, as sums over the tile's number. -/
theorem range_tiles (f : ℕ → EReal) : ∑ k ∈ Finset.range (63 + 1), f k = ∑ t : Fin 64, f t.val :=
  Finset.sum_range f

theorem tileSum_fin (c : Dev nD) (ch t : Fin 64) :
    tileSum V c ch t.val = ∑ r : Fin 64, ∑ l : Fin 256, arr V c (pos t ch r l) := by
  unfold tileSum; rw [dif_pos t.isLt]
theorem tileSq_fin (c : Dev nD) (ch t : Fin 64) :
    tileSq V c ch t.val = ∑ r : Fin 64, ∑ l : Fin 256, arr V c (pos t ch r l) * arr V c (pos t ch r l) := by
  unfold tileSq; rw [dif_pos t.isLt]

/-! ## The one write-back -/

/-- The accumulators' block at the last point, at zero offsets, is the whole result array. -/
theorem flushed_sum (c : Dev nD) (t : Fin cfg0.N) (hf : (cfg0.win 1).flush t = true) :
    (dat0 V c).flushed 1 t = ((cfg0.win 1).blk t).view.read (Elt Ideal) (outsAt0 V c 63 h63).1 := by
  have hN : cfg0.N = 64 := N_0
  have h3 : t.val = 63 := by have := (flush0_1 t).mp hf; have := t.isLt; omega
  obtain rfl : t = tLast := Fin.ext h3
  show (cfg0.win 1).cut (grid0.coords tLast) ((dat0 V c).after 1 tLast) = _
  rw [after0_1]
  have hz' : (fun a => win0_1.index tLast a * main_v0_0.ty.shape.size a) = fun _ => 0 := funext fun a => by fin_cases a <;> decide
  exact (Memref.read_access_unit_zero (Elt Ideal) main_v0_0 hz' (fun a => by rw [congrFun hz' a]; simp) (outsAt0 V c 63 h63).1).symm

theorem flushed_sq (c : Dev nD) (t : Fin cfg0.N) (hf : (cfg0.win 2).flush t = true) :
    (dat0 V c).flushed 2 t = ((cfg0.win 2).blk t).view.read (Elt Ideal) (outsAt0 V c 63 h63).2 := by
  have hN : cfg0.N = 64 := N_0
  have h3 : t.val = 63 := by have := (flush0_2 t).mp hf; have := t.isLt; omega
  obtain rfl : t = tLast := Fin.ext h3
  show (cfg0.win 2).cut (grid0.coords tLast) ((dat0 V c).after 2 tLast) = _
  rw [after0_2]
  have hz' : (fun a => win0_2.index tLast a * main_v0_1.ty.shape.size a) = fun _ => 0 := funext fun a => by fin_cases a <;> decide
  exact (Memref.read_access_unit_zero (Elt Ideal) main_v0_1 hz' (fun a => by rw [congrFun hz' a]; simp) (outsAt0 V c 63 h63).2).symm

/-- So the sum array ends at the accumulator's contents after the last point. -/
theorem final_sum (c : Dev nD) : (dat0 V c).arrAt 1 cfg0.N = (outsAt0 V c 63 h63).1 :=
  (dat0 V c).arrAt_eq_of_cover 1 _ (flushed_sum V c) fun i =>
    ⟨tLast, (flush0_1 tLast).mpr rfl, by
      show i ∈ ((View.whole main_v0_0).slice (win0_1.rect tLast)).set
      rw [View.set_slice_whole, Rect.mem_set_unit]
      intro a
      have h0 : (i 0 : Nat) < 64 := (i 0).isLt
      match a with
      | ⟨0, _⟩ =>
        show win0_1.index tLast 0 * win0_1.size 0 ≤ (i 0 : Nat) ∧ (i 0 : Nat) < win0_1.index tLast 0 * win0_1.size 0 + win0_1.xsize (grid0.coords tLast) 0
        rw [show win0_1.index tLast 0 * win0_1.size 0 = 0 from by decide +kernel, show win0_1.xsize (grid0.coords tLast) 0 = 64 from by decide +kernel]; omega⟩

theorem final_sq (c : Dev nD) : (dat0 V c).arrAt 2 cfg0.N = (outsAt0 V c 63 h63).2 :=
  (dat0 V c).arrAt_eq_of_cover 2 _ (flushed_sq V c) fun i =>
    ⟨tLast, (flush0_2 tLast).mpr rfl, by
      show i ∈ ((View.whole main_v0_1).slice (win0_2.rect tLast)).set
      rw [View.set_slice_whole, Rect.mem_set_unit]
      intro a
      have h0 : (i 0 : Nat) < 64 := (i 0).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 64 from by decide +kernel]; omega⟩

/-- The region's two result arrays at a channel: zero plus the channel's entries (resp. squares) summed tile by tile. -/
theorem sum_array_at (c : Dev nD) (ch : Fin 64) :
    (dat0 V c).arrAt 1 cfg0.N (ix1 ch)
      = Ideal.ofBits .f32 0x00000000#32 + ∑ t : Fin 64, ∑ r : Fin 64, ∑ l : Fin 256, arr V c (pos t ch r l) := by
  rw [final_sum V c, acc_sum_at V c ch 63 h63, range_tiles]
  exact congrArg _ (Finset.sum_congr rfl fun t _ => tileSum_fin V c ch t)

theorem sq_array_at (c : Dev nD) (ch : Fin 64) :
    (dat0 V c).arrAt 2 cfg0.N (ix1 ch)
      = Ideal.ofBits .f32 0x00000000#32
        + ∑ t : Fin 64, ∑ r : Fin 64, ∑ l : Fin 256, arr V c (pos t ch r l) * arr V c (pos t ch r l) := by
  rw [final_sq V c, acc_sq_at V c ch 63 h63, range_tiles]
  exact congrArg _ (Finset.sum_congr rfl fun t _ => tileSq_fin V c ch t)

end Cert.KernelIdeal.Sums

end
-- ==== Proof.Stats.lean ====
/-
  The two functions both programs compute after the sums.

  From a channel's sum `s₁` and sum of squares `s₂` over the 2²⁰ entries of the channel: the mean `s₁ / 2²⁰`, the
  variance `s₂ / 2²⁰ − mean²`, the inverse deviation `rsqrt (variance + ε)`, the scale `w · rsqrt(…)` and the shift
  `b − mean · w · rsqrt(…)`. Both programs apply exactly these host operations, in this order, to their sums, so the
  chain is named once and never opened: the two sides agree as soon as the sums going in agree.

  The output at a position is `a(x · scale + shift)` of the position's channel, `a` the leaky rectifier: `y` where
  `y ≥ 0`, `0.01 · y` elsewhere (both constants the same 32-bit words in the two programs).
-/
import proofs.«177240_j5669356835394_1_alg».proof.Proof.Gen.KernelIdeal
import proofs.«177240_j5669356835394_1_alg».proof.Proof.Regroup

noncomputable section

namespace Cert.BatchStat

open Idealize.ShloMosaic Idealize.ShloMosaic.ValueIdx Cert.KernelIdeal Cert.KernelIdeal.Gen

section AnyFloat

variable {F : FTy → Type} [FloatOps F]

/-- A per-channel total divided by the number of entries of a channel, 2²⁰ (the word `0x49800000`). -/
def meanOf (s : FVec F S64 .f32) : FVec F S64 .f32 :=
  Host.divf s (broadcastInDim S64 ![] bcast_S_S64 (constant S_ .f32 0x49800000#32))

/-- The inverse deviation: the reciprocal square root of variance plus ε (the word `0x3727C5AC`). -/
def invDev (s1 s2 : FVec F S64 .f32) : FVec F S64 .f32 :=
  Host.rsqrt (addf (subf (meanOf s2) (mulf (meanOf s1) (meanOf s1)))
    (broadcastInDim S64 ![] bcast_S_S64 (constant S_ .f32 0x3727C5AC#32)))

/-- The per-channel scale. -/
def scaleOf (s1 s2 w : FVec F S64 .f32) : FVec F S64 .f32 := mulf w (invDev s1 s2)

/-- The per-channel shift. -/
def shiftOf (s1 s2 w b : FVec F S64 .f32) : FVec F S64 .f32 := subf b (mulf (mulf (meanOf s1) w) (invDev s1 s2))

end AnyFloat

/-- A position's channel, as an index of the per-channel vectors. -/
def chanOf (i : SX.Idx) : SC.Idx := ix1 (⟨(i 1).val, (i 1).isLt⟩ : Fin 64)

theorem chanOf_pos (t ch r : Fin 64) (l : Fin 256) : chanOf (pos t ch r l) = ix1 ch := rfl

/-- The leaky rectifier on the extended reals. -/
def leaky (y : Ideal .f32) : Ideal .f32 :=
  Scalar.select (FloatOps.cmpf .oge y (FloatOps.ofBits .f32 0x00000000#32)) y
    (FloatOps.mulf (FloatOps.ofBits .f32 0x3C23D70A#32) y)

/-- The output at a position: the rectified affine image of the entry, by its channel's scale and shift. -/
def outAt (x : SX.Idx → Ideal .f32) (sc sh : SC.Idx → Ideal .f32) (i : SX.Idx) : Ideal .f32 :=
  leaky (FloatOps.addf (FloatOps.mulf (x i) (sc (chanOf i))) (sh (chanOf i)))

end Cert.BatchStat

end
-- ==== Proof.Activation.lean ====
/-
  The second region's body at one element.

  The body loads a tile (1 × 64 × 64 × 256) and the two per-channel vectors, views each vector as a 64 × 1 × 1 column
  and spreads it over the tile's rows and lanes, and stores `a(x · scale + shift)` element by element, `a` the leaky
  rectifier. Read at the tile's element (channel `ch`, row `r`, lane `l`): the column's entry (ch, 0, 0) is the
  vector's entry `ch` (same row-major position), and the spread vector's entry (ch, r, l) is the column's (ch, 0, 0).
-/
import proofs.«177240_j5669356835394_1_alg».proof.Proof.Gen.KernelIdeal.Skeleton
import proofs.«177240_j5669356835394_1_alg».proof.Proof.Stats
import Idealize.ShloMosaic.Lib.Pipeline.Value
import Idealize.ShloMosaic.Lib.ValueLayout
import Idealize.ShloMosaic.Lib.ValueIdx

noncomputable section

open Idealize.ShloMosaic Idealize.ShloMosaic.ValueIdx

namespace Cert.KernelIdeal.Norm

open Cert.KernelIdeal Cert.KernelIdeal.Gen Cert.BatchStat

variable {α : Type}

/-- A 64-vector viewed as a 64 × 1 × 1 column: entry (ch, ·, ·) is entry `ch`. -/
theorem column_apply (v : S64.Idx → α) (h : S64.ShapeCasts S64x1x1) (ch : Fin 64) (u u' : Fin 1) :
    shapeCast S64x1x1 v h (ix3 ch u u') = v (ix1 ch) :=
  shapeCast_apply v h _ _ (by
    have hu : u.val = 0 := by omega
    have hu' : u'.val = 0 := by omega
    rw [Shape.rowMajor_val_one, Shape.rowMajor_val_three]
    show ch.val = (ch.val * 1 + u.val) * 1 + u'.val
    omega)

/-- The column spread over rows and lanes: entry (ch, r, l) is the column's entry (ch, 0, 0). -/
theorem spread_apply (v : S64x1x1.Idx → α) (h : S64x1x1.Broadcasts S64x64x256) (ch r : Fin 64) (l : Fin 256) :
    broadcastTo S64x64x256 v h (ix3 ch r l) = v (ix3 ch (0 : Fin 1) (0 : Fin 1)) := by
  refine broadcastTo_apply v h (ix3 ch r l) (ix3 ch (0 : Fin 1) (0 : Fin 1)) fun ax => ?_
  match ax with
  | ⟨0, _⟩ => show ch.val = if (64 : ℕ) = 1 then 0 else ch.val; rw [if_neg (by decide)]
  | ⟨1, _⟩ => rfl
  | ⟨2, _⟩ => rfl

/-- The stored value at the tile's element (ch, r, l): the rectified affine image of the tile's entry by the
    channel's scale and shift. -/
theorem stored_apply (x : Vec Ideal S1x64x64x256 .f32) (sc sh : Vec Ideal S64 .f32) (u : Fin 1) (ch r : Fin 64) (l : Fin 256) :
    k1_pay1 (F := Ideal) x sc sh (ix4 u ch r l)
      = leaky (FloatOps.addf (FloatOps.mulf (x (ix4 (0 : Fin 1) ch r l)) (sc (ix1 ch))) (sh (ix1 ch))) := by
  unfold k1_pay1
  rw [shapeCast_abc_1abc_apply _ _ u ch r l]
  simp only [select_apply, cmpf_apply, mulf_apply, addf_apply, broadcast_apply]
  rw [shapeCast_1abc_abc_apply x _ ch r l, spread_apply, spread_apply, column_apply, column_apply, shapeCast_self,
    shapeCast_self]
  rfl

end Cert.KernelIdeal.Norm

end
-- ==== Proof.Normalize.lean ====
/-
  The second region's result array, position by position.

  At grid point `t` the body reads tile `t` of the input (block index (t / 4, 0, t mod 4, 0), as in the first region)
  and the whole per-channel scale and shift vectors (their one block, at offset zero, every point), and writes tile `t`
  of the output, which is flushed at every point. The stored element (channel `ch`, row `r`, lane `l`) is the
  rectified affine image of the input's entry at `pos t ch r l`, and it lands at the same position of the output. Every
  position lies in exactly the tile `tileOf` names, so the output array ends, everywhere, at `outAt` of the input array
  and the two vectors as the region finds them.
-/
import proofs.«177240_j5669356835394_1_alg».proof.Proof.Gen.KernelIdeal.Frame
import proofs.«177240_j5669356835394_1_alg».proof.Proof.Activation

noncomputable section

open Idealize.ShloMosaic Idealize.ShloMosaic.TcCoe Idealize.SL.Sem Idealize.ShloMosaic.ValueIdx
open Idealize.ShloMosaic.Pipeline (Dat)

namespace Cert.KernelIdeal.Norm

open Cert.KernelIdeal Cert.KernelIdeal.Gen Cert.BatchStat

theorem zeros1 : (![0] : Fin 1 → Nat) = fun _ => 0 := funext fun a => by fin_cases a <;> rfl
theorem zeros4 : (![0, 0, 0, 0] : Fin 4 → Nat) = fun _ => 0 := funext fun a => by fin_cases a <;> rfl

variable (V : (c : Dev nD) → (b : Ref sig .tc) → Buf (Elt Ideal) ((c : Thread nD τ).loc b))

/-- The three arrays the region reads, as it finds them, as plain functions of an index. -/
abbrev arrX (c : Dev nD) : SX.Idx → Ideal .f32 := V c main_arg0
abbrev arrScale (c : Dev nD) : SC.Idx → Ideal .f32 := V c main_v10
abbrev arrShift (c : Dev nD) : SC.Idx → Ideal .f32 := V c main_v13

/-- The three input blocks at grid point `t`, likewise. -/
abbrev inTile (c : Dev nD) (t : Fin cfg1.N) : Vec Ideal S1x64x64x256 .f32 := iblk1 V c 0 t
abbrev scaleBlk (c : Dev nD) (t : Fin cfg1.N) : Vec Ideal S64 .f32 := iblk1 V c 1 t
abbrev shiftBlk (c : Dev nD) (t : Fin cfg1.N) : Vec Ideal S64 .f32 := iblk1 V c 2 t

/-- The four windows' block indices at grid point `t`. -/
theorem idx_at : ∀ t : Fin cfg1.N,
      win1_0.index t (0 : Fin 4) = t.val / 4 ∧ win1_0.index t (1 : Fin 4) = 0 ∧ win1_0.index t (2 : Fin 4) = t.val % 4
      ∧ win1_0.index t (3 : Fin 4) = 0 ∧ win1_1.index t (0 : Fin 1) = 0 ∧ win1_2.index t (0 : Fin 1) = 0
      ∧ win1_3.index t (0 : Fin 4) = t.val / 4 ∧ win1_3.index t (1 : Fin 4) = 0 ∧ win1_3.index t (2 : Fin 4) = t.val % 4
      ∧ win1_3.index t (3 : Fin 4) = 0 :=
  (by decide +kernel : ∀ t : Fin grid1.N,
      win1_0.index t (0 : Fin 4) = t.val / 4 ∧ win1_0.index t (1 : Fin 4) = 0 ∧ win1_0.index t (2 : Fin 4) = t.val % 4
      ∧ win1_0.index t (3 : Fin 4) = 0 ∧ win1_1.index t (0 : Fin 1) = 0 ∧ win1_2.index t (0 : Fin 1) = 0
      ∧ win1_3.index t (0 : Fin 4) = t.val / 4 ∧ win1_3.index t (1 : Fin 4) = 0 ∧ win1_3.index t (2 : Fin 4) = t.val % 4
      ∧ win1_3.index t (3 : Fin 4) = 0)

/-- An entry of the input's tile `t` is the array's entry at the tile's position. -/
theorem in_tile_entry (c : Dev nD) (t : Fin cfg1.N) (ch r : Fin 64) (l : Fin 256) :
    inTile V c t (ix4 (0 : Fin 1) ch r l) = arrX V c (pos (t.cast N_1) ch r l) := by
  obtain ⟨h0, h1, h2, h3, -⟩ := idx_at t
  unfold inTile arrX iblk1
  rw [View.read_apply]
  show V c main_arg0 _ = V c main_arg0 _
  congr 1
  funext a
  apply Fin.ext
  match a with
  | ⟨0, _⟩ => show win1_0.index t 0 * 1 + 1 * 0 = t.val / 4; rw [h0]; omega
  | ⟨1, _⟩ => show win1_0.index t 1 * 64 + 1 * ch.val = ch.val; rw [h1]; omega
  | ⟨2, _⟩ => show win1_0.index t 2 * 64 + 1 * r.val = t.val % 4 * 64 + r.val; rw [h2]; omega
  | ⟨3, _⟩ => show win1_0.index t 3 * 256 + 1 * l.val = l.val; rw [h3]; omega

/-- The scale vector's block at any point is the whole vector; the shift vector's likewise. -/
theorem scale_block (c : Dev nD) (t : Fin cfg1.N) : scaleBlk V c t = arrScale V c := by
  obtain ⟨-, -, -, -, h4, -⟩ := idx_at t
  have hz' : (fun a => win1_1.index t a * main_v10.ty.shape.size a) = fun _ => 0 := funext fun a => by
    match a with
    | ⟨0, _⟩ => show win1_1.index t 0 * 64 = 0; rw [h4]
  exact Memref.read_access_unit_zero (Elt Ideal) main_v10 hz' (fun a => by rw [congrFun hz' a]; simp) (V c main_v10)

theorem shift_block (c : Dev nD) (t : Fin cfg1.N) : shiftBlk V c t = arrShift V c := by
  obtain ⟨-, -, -, -, -, h5, -⟩ := idx_at t
  have hz' : (fun a => win1_2.index t a * main_v13.ty.shape.size a) = fun _ => 0 := funext fun a => by
    match a with
    | ⟨0, _⟩ => show win1_2.index t 0 * 64 = 0; rw [h5]
  exact Memref.read_access_unit_zero (Elt Ideal) main_v13 hz' (fun a => by rw [congrFun hz' a]; simp) (V c main_v13)

/-- Element (ch, r, l) of the output's tile `t` lands at the tile's position of the output array. -/
theorem out_tile_pos (t : Fin cfg1.N) (u : Fin 1) (ch r : Fin 64) (l : Fin 256) :
    ((cfg1.win 3).blk t).view.emb (ix4 u ch r l) = pos (t.cast N_1) ch r l := by
  obtain ⟨-, -, -, -, -, -, h6, h7, h8, h9⟩ := idx_at t
  have hu : u.val = 0 := by omega
  funext a
  apply Fin.ext
  match a with
  | ⟨0, _⟩ => show win1_3.index t 0 * 1 + 1 * u.val = t.val / 4; rw [h6, hu]; omega
  | ⟨1, _⟩ => show win1_3.index t 1 * 64 + 1 * ch.val = ch.val; rw [h7]; omega
  | ⟨2, _⟩ => show win1_3.index t 2 * 64 + 1 * r.val = t.val % 4 * 64 + r.val; rw [h8]; omega
  | ⟨3, _⟩ => show win1_3.index t 3 * 256 + 1 * l.val = l.val; rw [h9]; omega

/-- What point `t` writes back is tile `t` of `outAt` of the three arrays. -/
theorem flushed_out (c : Dev nD) (t : Fin cfg1.N) :
    (dat1 V c).flushed 3 t
      = ((cfg1.win 3).blk t).view.read (Elt Ideal) (outAt (arrX V c) (arrScale V c) (arrShift V c)) := by
  show (cfg1.win 3).cut (grid1.coords t) ((dat1 V c).after 3 t) = _
  rw [after1_3]
  unfold out1_3
  rw [View.canon_unit_zero zeros4]
  simp only [View.ld_unit_zero (S := S1x64x64x256) zeros4, View.ld_unit_zero (S := S64) zeros1]
  funext j
  obtain ⟨u, ch, r, l, rfl⟩ : ∃ (u : Fin 1) (ch r : Fin 64) (l : Fin 256), j = ix4 u ch r l :=
    ⟨j 0, j 1, j 2, j 3, eq_ix4 j⟩
  show k1_pay1 (F := Ideal) (iblk1 V c 0 t) (iblk1 V c 1 t) (iblk1 V c 2 t) (ix4 u ch r l)
      = outAt (arrX V c) (arrScale V c) (arrShift V c) (((cfg1.win 3).blk t).view.emb (ix4 u ch r l))
  rw [out_tile_pos t u ch r l]
  refine (stored_apply _ _ _ u ch r l).trans ?_
  show leaky (FloatOps.addf (FloatOps.mulf (inTile V c t (ix4 (0 : Fin 1) ch r l)) (scaleBlk V c t (ix1 ch)))
      (shiftBlk V c t (ix1 ch))) = _
  rw [in_tile_entry V c t ch r l, scale_block V c t, shift_block V c t]
  rfl

/-- A position lies in the tile `tileOf` names. -/
theorem covered (i : SX.Idx) :
    ∃ t : Fin cfg1.N, (cfg1.win 3).flush t = true ∧ i ∈ ((cfg1.win 3).blk t).view.set := by
  have h0 : (i 0).val < 16 := (i 0).isLt
  have h1 : (i 1).val < 64 := (i 1).isLt
  have h2 : (i 2).val < 256 := (i 2).isLt
  have h3 : (i 3).val < 256 := (i 3).isLt
  refine ⟨(tileOf i).cast N_1.symm, flush1_3 _, ?_⟩
  obtain ⟨-, -, -, -, -, -, h6, h7, h8, h9⟩ := idx_at ((tileOf i).cast N_1.symm)
  have hv : ((tileOf i).cast N_1.symm).val = (i 0).val * 4 + (i 2).val / 64 := rfl
  rw [hv] at h6 h8
  show i ∈ ((View.whole main_v14).slice (win1_3.rect ((tileOf i).cast N_1.symm))).set
  rw [View.set_slice_whole, Rect.mem_set_unit]
  intro a
  match a with
  | ⟨0, _⟩ =>
    show win1_3.index ((tileOf i).cast N_1.symm) 0 * 1 ≤ (i 0).val ∧ (i 0).val < win1_3.index ((tileOf i).cast N_1.symm) 0 * 1 + 1
    rw [h6]; omega
  | ⟨1, _⟩ =>
    show win1_3.index ((tileOf i).cast N_1.symm) 1 * 64 ≤ (i 1).val ∧ (i 1).val < win1_3.index ((tileOf i).cast N_1.symm) 1 * 64 + 64
    rw [h7]; omega
  | ⟨2, _⟩ =>
    show win1_3.index ((tileOf i).cast N_1.symm) 2 * 64 ≤ (i 2).val ∧ (i 2).val < win1_3.index ((tileOf i).cast N_1.symm) 2 * 64 + 64
    rw [h8]; omega
  | ⟨3, _⟩ =>
    show win1_3.index ((tileOf i).cast N_1.symm) 3 * 256 ≤ (i 3).val ∧ (i 3).val < win1_3.index ((tileOf i).cast N_1.symm) 3 * 256 + 256
    rw [h9]; omega

/-- So the output array ends at `outAt` of the three arrays as the region finds them. -/
theorem final_out (c : Dev nD) :
    (dat1 V c).arrAt 3 cfg1.N = outAt (arrX V c) (arrScale V c) (arrShift V c) :=
  (dat1 V c).arrAt_eq_of_cover 3 _ (fun t _ => flushed_out V c t) (covered)

end Cert.KernelIdeal.Norm

end
-- ==== Proof.KernelValue.lean ====
/-
  The idealized kernel's result as one function of its arguments.

  Reading the last boundary back: the result array is what the second region leaves, `outAt` of the input array and
  of the scale and shift vectors as that region finds them; those two vectors are what the host stretch computes, the
  shared chain applied to the first region's two result arrays and the weight and bias; the input, weight and bias are
  read unchanged all the way from the launch; and the first region's arrays are, channel by channel, zero plus the
  channel's entries (resp. squares) summed tile by tile.
-/
import proofs.«177240_j5669356835394_1_alg».proof.Proof.KernelRun
import proofs.«177240_j5669356835394_1_alg».proof.Proof.Accumulate
import proofs.«177240_j5669356835394_1_alg».proof.Proof.Normalize
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.BatchStat

variable (m : (ℓ : Loc nD τ sig) → Buf (Elt Ideal) ℓ) (ρ : Dev nD → PrngReg)

/-- The three arguments at launch, and the first region's two result arrays, as plain functions of an index. -/
abbrev argX (c : Dev nD) : SX.Idx → Ideal .f32 := m ((c.tc : Thread nD τ).loc main_arg0)
abbrev argW (c : Dev nD) : SC.Idx → Ideal .f32 := m ((c.tc : Thread nD τ).loc main_arg1)
abbrev argB (c : Dev nD) : SC.Idx → Ideal .f32 := m ((c.tc : Thread nD τ).loc main_arg2)
abbrev sums (c : Dev nD) : SC.Idx → Ideal .f32 := W1 m ρ c (Proc.devRef .tc main_v0_0)
abbrev squares (c : Dev nD) : SC.Idx → Ideal .f32 := W1 m ρ c (Proc.devRef .tc main_v0_1)

/-- The first region's result arrays at a channel. -/
theorem sums_at (c : Dev nD) (ch : Fin 64) :
    sums m ρ c (ix1 ch)
      = Ideal.ofBits .f32 0x00000000#32 + ∑ t : Fin 64, ∑ r : Fin 64, ∑ l : Fin 256, argX m c (pos t ch r l) :=
  (congrFun (W1_arr m ρ c 1) (ix1 ch)).trans (Sums.sum_array_at (V0 m ρ) c ch)

theorem squares_at (c : Dev nD) (ch : Fin 64) :
    squares m ρ c (ix1 ch)
      = Ideal.ofBits .f32 0x00000000#32
        + ∑ t : Fin 64, ∑ r : Fin 64, ∑ l : Fin 256, argX m c (pos t ch r l) * argX m c (pos t ch r l) :=
  (congrFun (W1_arr m ρ c 2) (ix1 ch)).trans (Sums.sq_array_at (V0 m ρ) c ch)

/-- The weight and the bias are not touched by the first region. -/
theorem weight_kept (c : Dev nD) : (W1 m ρ c (Proc.devRef .tc main_arg1) : SC.Idx → Ideal .f32) = argW m c :=
  W1_of_ne m ρ c main_arg1 (by decide)
theorem bias_kept (c : Dev nD) : (W1 m ρ c (Proc.devRef .tc main_arg2) : SC.Idx → Ideal .f32) = argB m c :=
  W1_of_ne m ρ c main_arg2 (by decide)

/-- The host stretch computes the scale and the shift: the shared chain of the two result arrays, the weight and the bias. -/
theorem scale_entry (c : Dev nD) :
    Norm.arrScale (V2 m ρ) c = scaleOf (sums m ρ c) (squares m ρ c) (argW m c) := by
  rw [← weight_kept m ρ c]
  show StableHlo.after hostOps1 (W1 m ρ c) (Proc.devRef .tc main_v10) = _
  after_results
  rfl

theorem shift_entry (c : Dev nD) :
    Norm.arrShift (V2 m ρ) c = shiftOf (sums m ρ c) (squares m ρ c) (argW m c) (argB m c) := by
  rw [← weight_kept m ρ c, ← bias_kept m ρ c]
  show StableHlo.after hostOps1 (W1 m ρ c) (Proc.devRef .tc main_v13) = _
  after_results
  rfl

/-- The second region finds the input array as launched. -/
theorem input_entry (c : Dev nD) : Norm.arrX (V2 m ρ) c = argX m c :=
  (((W3_arr m ρ c 0).trans (((dat1 (V2 m ρ) c).arrAt_in 0 rfl _).trans (A_eq1 (V2 m ρ) c 0))).symm).trans
    (W3_main_arg0 m ρ c)

/-- The result array, as the last boundary has it, is `outAt` of the arguments and the shared chain of the sums. -/
theorem result_eq (c : Dev nD) :
    (W3 m ρ c (Proc.devRef .tc main_v14) : SX.Idx → Ideal .f32)
      = outAt (argX m c) (scaleOf (sums m ρ c) (squares m ρ c) (argW m c))
          (shiftOf (sums m ρ c) (squares m ρ c) (argW m c) (argB m c)) := by
  rw [← input_entry m ρ c, ← scale_entry m ρ c, ← shift_entry m ρ c]
  exact (W3_arr m ρ c 3).trans (Norm.final_out (V2 m ρ) c)

end Cert.KernelIdeal.Value

end
-- ==== Proof.RefValue.lean ====
/-
  The reference, read as the same function.

  The reference sums each channel (and each channel's squares) over batch, height and width in one reduction from zero;
  by the regrouping this is zero plus the sum over tiles, rows and lanes. It then applies the shared chain (mean,
  variance, inverse deviation, scale, shift) to the two sums, spreads scale and shift over the array by channel, and
  rectifies `x · scale + shift` element by element.
-/
import proofs.«177240_j5669356835394_1_alg».proof.Proof.Gen.ReferenceIdeal.Read
import proofs.«177240_j5669356835394_1_alg».proof.Proof.Stats

noncomputable section

open scoped BigOperators
open Idealize.ShloMosaic Idealize.ShloMosaic.ValueIdx

namespace Cert.ReferenceIdeal.RefValue

open Cert.ReferenceIdeal Cert.ReferenceIdeal.Gen Cert.ReferenceIdeal.Read Cert.BatchStat

/-- The sum stage at a channel: zero plus the channel's entries summed tile by tile. -/
theorem sum_stage (x : SX.Idx → Ideal .f32) (ch : Fin 64) :
    val_main_v0 (F := Ideal) x (ix1 ch)
      = Ideal.ofBits .f32 0x00000000#32 + ∑ t : Fin 64, ∑ r : Fin 64, ∑ l : Fin 256, x (pos t ch r l) :=
  (show val_main_v0 (F := Ideal) x (ix1 ch) = Ideal.ofBits .f32 0x00000000#32
      + ∑ i ∈ Finset.univ.filter (fun i => reducesTo_S16x64x256x256_S64_d0_2_3.drop i = ix1 ch), x i from rfl).trans
    (congrArg _ (sum_channel reducesTo_S16x64x256x256_S64_d0_2_3 x ch))

/-- The sum-of-squares stage at a channel likewise. -/
theorem sq_stage (x : SX.Idx → Ideal .f32) (ch : Fin 64) :
    val_main_v4 (F := Ideal) x (ix1 ch)
      = Ideal.ofBits .f32 0x00000000#32 + ∑ t : Fin 64, ∑ r : Fin 64, ∑ l : Fin 256, x (pos t ch r l) * x (pos t ch r l) :=
  (show val_main_v4 (F := Ideal) x (ix1 ch) = Ideal.ofBits .f32 0x00000000#32
      + ∑ i ∈ Finset.univ.filter (fun i => reducesTo_S16x64x256x256_S64_d0_2_3.drop i = ix1 ch), (fun i => x i * x i) i from rfl).trans
    (congrArg _ (sum_channel reducesTo_S16x64x256x256_S64_d0_2_3 (fun i => x i * x i) ch))

/-- The scale stage is the shared chain applied to the two sum stages. -/
theorem scale_stage (x : SX.Idx → Ideal .f32) (w : SC.Idx → Ideal .f32) :
    val_main_v12 (F := Ideal) x w = scaleOf (val_main_v0 (F := Ideal) x) (val_main_v4 (F := Ideal) x) w := by
  unfold val_main_v12 val_main_v11 val_main_v10 val_main_v9 val_main_v8 val_main_v7 val_main_v6 val_main_v5 val_main_v2
    val_main_v1 val_main_cst_0 val_main_cst_2 val_main_cst_3 scaleOf invDev meanOf
  rfl

/-- The shift stage likewise. -/
theorem shift_stage (x : SX.Idx → Ideal .f32) (w b : SC.Idx → Ideal .f32) :
    val_main_v16 (F := Ideal) x w b = shiftOf (val_main_v0 (F := Ideal) x) (val_main_v4 (F := Ideal) x) w b := by
  unfold val_main_v16 val_main_v15 val_main_v14 val_main_v11 val_main_v10 val_main_v9 val_main_v8 val_main_v7 val_main_v6
    val_main_v5 val_main_v2 val_main_v1 val_main_cst_0 val_main_cst_2 val_main_cst_3 shiftOf invDev meanOf
  rfl

/-- The result at a position: the rectified affine image of the entry by its channel's scale and shift stages. -/
theorem out_stage (x : SX.Idx → Ideal .f32) (w b : SC.Idx → Ideal .f32) (i : SX.Idx) :
    val_main_v26 (F := Ideal) x w b i = outAt x (val_main_v12 (F := Ideal) x w) (val_main_v16 (F := Ideal) x w b) i := by
  have e1 : idx_main_v13 (idx_main_v18 i) = chanOf i := funext fun a => Fin.ext (match a with | ⟨0, _⟩ => rfl)
  have e2 : idx_main_v17 (idx_main_v20 i) = chanOf i := funext fun a => Fin.ext (match a with | ⟨0, _⟩ => rfl)
  rw [val_main_v26_apply, val_main_v23_apply, val_main_v25_apply, val_main_v21_apply, val_main_v19_apply,
    val_main_v18_apply, val_main_v13_apply, val_main_v20_apply, val_main_v17_apply, val_main_v22_apply,
    val_main_v24_apply, val_main_cst_4_apply, val_main_cst_5_apply, e1, e2]
  rfl

/-- So the reference's result is, position by position, `outAt` of the argument array and the shared chain of the
    regrouped sums. -/
theorem result_eq (x : SX.Idx → Ideal .f32) (w b : SC.Idx → Ideal .f32) :
    val_main_v26 (F := Ideal) x w b
      = outAt x (scaleOf (val_main_v0 (F := Ideal) x) (val_main_v4 (F := Ideal) x) w)
          (shiftOf (val_main_v0 (F := Ideal) x) (val_main_v4 (F := Ideal) x) w b) := by
  funext i
  rw [out_stage, scale_stage, shift_stage]

end Cert.ReferenceIdeal.RefValue

end
-- ==== Proof.lean ====
/-
  Training-mode batch normalisation with a leaky rectifier, tiled in two passes, against its one-pass reference:
  equal results over the extended reals.

  Both programs compute, per channel, the sum `s₁` and the sum of squares `s₂` of the channel's 2²⁰ entries, then
  mean, variance, inverse deviation, scale and shift by the same host operations on the same constants, and finally
  `a(x · scale + shift)` at every position. They differ only in how the sums are taken: the reference reduces over
  batch, height and width at once, from zero; the kernel's first pass visits the array in 64 tiles and, tile by tile,
  adds to a zeroed accumulator the tile's entries summed along lanes and then along rows. "Tile, row, lane" is a
  bijection onto a channel's positions, and addition of extended reals is commutative and associative, so the two
  totals are the same number — at infinite entries too: the precondition that the inputs are finite is never used.
  The second pass is pointwise and lands every tile where it was read.

  The frames of the two kernel programs are the generated ones; the reference's frame is its generated run with the
  result dropped; the idealisation rewrote nothing, so `preserves` is trivial.
-/
import proofs.«177240_j5669356835394_1_alg».proof.Defs
import proofs.«177240_j5669356835394_1_alg».proof.Proof.Gen.Kernel
import proofs.«177240_j5669356835394_1_alg».proof.Proof.Gen.Kernel.Skeleton
import proofs.«177240_j5669356835394_1_alg».proof.Proof.Gen.Kernel.Launch
import proofs.«177240_j5669356835394_1_alg».proof.Proof.Gen.Kernel.Points
import proofs.«177240_j5669356835394_1_alg».proof.Proof.Gen.Kernel.Frame
import proofs.«177240_j5669356835394_1_alg».proof.Proof.Gen.KernelIdeal
import proofs.«177240_j5669356835394_1_alg».proof.Proof.Gen.KernelIdeal.Skeleton
import proofs.«177240_j5669356835394_1_alg».proof.Proof.Gen.KernelIdeal.Launch
import proofs.«177240_j5669356835394_1_alg».proof.Proof.Gen.KernelIdeal.Points
import proofs.«177240_j5669356835394_1_alg».proof.Proof.Gen.KernelIdeal.Frame
import proofs.«177240_j5669356835394_1_alg».proof.Proof.Gen.ReferenceIdeal
import proofs.«177240_j5669356835394_1_alg».proof.Proof.Gen.ReferenceIdeal.Run
import proofs.«177240_j5669356835394_1_alg».proof.Proof.Gen.ReferenceIdeal.Read
import proofs.«177240_j5669356835394_1_alg».proof.Proof.Gen.Pre_finite_inputs
import proofs.«177240_j5669356835394_1_alg».proof.Proof.KernelValue
import proofs.«177240_j5669356835394_1_alg».proof.Proof.RefValue
import Idealize.ShloMosaic.Adequacy
import Idealize.ShloMosaic.Init

noncomputable section

namespace Cert.Proof

open Idealize.ShloMosaic Idealize.ShloMosaic.ValueIdx Idealize.SL.Sem Cert.BatchStat

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' per-channel sums agree: each is zero plus the channel's entries summed tile by tile. -/
theorem sums_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v0 (F := Ideal) (Cert.KernelIdeal.Value.argX m c) = Cert.KernelIdeal.Value.sums m ρ c := by
  funext j
  obtain ⟨ch, rfl⟩ : ∃ ch : Fin 64, j = ix1 ch := ⟨j 0, eq_ix1 j⟩
  rw [Cert.ReferenceIdeal.RefValue.sum_stage, Cert.KernelIdeal.Value.sums_at]

theorem squares_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v4 (F := Ideal) (Cert.KernelIdeal.Value.argX m c) = Cert.KernelIdeal.Value.squares m ρ c := by
  funext j
  obtain ⟨ch, rfl⟩ : ∃ ch : Fin 64, j = ix1 ch := ⟨j 0, eq_ix1 j⟩
  rw [Cert.ReferenceIdeal.RefValue.sq_stage, Cert.KernelIdeal.Value.squares_at]

/-- From memories agreeing on the arguments both programs end with the same result array: `outAt` of the input and
    the shared chain of sums that agree. -/
theorem algebraic : Cert.algebraic_KernelIdeal_ReferenceIdeal := by
  intro m ρ m' ρ' _ hagree
  refine ⟨fun c => Cert.KernelIdeal.Gen.W3 m ρ c (Proc.devRef .tc Cert.KernelIdeal.main_v14),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2]
  refine (Cert.ReferenceIdeal.RefValue.result_eq (Cert.KernelIdeal.Value.argX m c) (Cert.KernelIdeal.Value.argW m c)
    (Cert.KernelIdeal.Value.argB m c)).trans ?_
  rw [sums_agree m ρ c, squares_agree m ρ c]
  exact (Cert.KernelIdeal.Value.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
